-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : FVec F S50000x128 .f32) (main_arg2 : FVec F S600000 .f32) (main_arg3 : FVec F S128x128 .f32) (main_arg4 : IVec S600000 32) (main_arg5 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S600000 .f32 := Host.absf main_arg2
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S600000 : Shape := ⟨1, ![600000]⟩
abbrev S128x128 : Shape := ⟨2, ![128, 128]⟩
abbrev S600000x1 : Shape := ⟨2, ![600000, 1]⟩
abbrev S_ : Shape := ⟨0, ![]⟩
abbrev S600000x128 : Shape := ⟨2, ![600000, 128]⟩
abbrev S5000x128 : Shape := ⟨2, ![5000, 128]⟩

abbrev nBuf : Space → Nat
  | .hbm => 23
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S600000, .f32⟩
  | .hbm, ⟨3, _⟩ => ⟨S128x128, .f32⟩
  | .hbm, ⟨4, _⟩ => ⟨S600000, .i32⟩
  | .hbm, ⟨5, _⟩ => ⟨S600000, .i32⟩
  | .hbm, ⟨6, _⟩ => ⟨S600000x1, .f32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S600000x128, .f32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S600000x1 : Shape := ⟨2, ![600000, 1]⟩
abbrev S_ : Shape := ⟨0, ![]⟩
abbrev S600000x128 : Shape := ⟨2, ![600000, 128]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S600000, .f32⟩
  | .hbm, ⟨3, _⟩ => ⟨S128x128, .f32⟩
  | .hbm, ⟨4, _⟩ => ⟨S600000, .i32⟩
  | .hbm, ⟨5, _⟩ => ⟨S600000, .i32⟩
  | .hbm, ⟨6, _⟩ => ⟨S600000x1, .f32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S600000x128, .f32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LayerSpec.lean ====
/-
  One propagation layer of a residual graph convolution, as a function of arrays over the extended reals.

  With `a` the aggregated neighbour features and `b` the initial features (both n × 128) and `w` the
  128 × 128 weight, the layer first blends the two feature arrays entry by entry,
      s[p, k] = cAgg · a[p, k] + cInit · b[p, k],
  and then mixes the blend's product with the weight and the blend itself:
      out[p, q] = cProd · (∑ k, s[p, k] · w[k, q]) + cKeep · s[p, q].
  The four coefficients are the values of four f32 words (0.9, 0.1, log 1.5 and 1 − log 1.5 after rounding);
  nothing below depends on which numbers they are.  Row `p` of the result depends on row `p` of `a` and `b`
  only, which is why a block of rows of the result is the same expression of the matching blocks of rows.
-/
import Idealize.ShloMosaic.PureOps.Ideal
import Idealize.ShloMosaic.Lib.ValueIdx

noncomputable section

open scoped BigOperators

namespace Cert.LayerSpec

open Idealize.ShloMosaic Idealize.ShloMosaic.ValueIdx

/-- The coefficient of the aggregated features in the blend. -/
abbrev cAgg : EReal := Ideal.ofBits .f32 0x3F666666#32
/-- The coefficient of the initial features in the blend. -/
abbrev cInit : EReal := Ideal.ofBits .f32 0x3DCCCCCD#32
/-- The coefficient of the product with the weight. -/
abbrev cProd : EReal := Ideal.ofBits .f32 0x3ECF991F#32
/-- The coefficient of the blend kept beside the product. -/
abbrev cKeep : EReal := Ideal.ofBits .f32 0x3F183370#32

/-- The blend of the two feature arrays at row `p`, column `k`. -/
def blend (n : Nat) (a b : (⟨2, ![n, 128]⟩ : Shape).Idx → EReal) (p : Fin n) (k : Fin 128) : EReal :=
  cAgg * a (ix2 p k) + cInit * b (ix2 p k)

/-- The layer's result at row `p`, column `q`: the blend's row `p` times the weight's column `q`, mixed with the
    blend's own entry. -/
def entry (n : Nat) (a b : (⟨2, ![n, 128]⟩ : Shape).Idx → EReal) (w : (⟨2, ![128, 128]⟩ : Shape).Idx → EReal)
    (p : Fin n) (q : Fin 128) : EReal :=
  cProd * (∑ k : Fin 128, blend n a b p k * w (ix2 k q)) + cKeep * blend n a b p q

/-- The layer over the whole 50000 × 128 feature arrays. -/
def layer (a b : (⟨2, ![50000, 128]⟩ : Shape).Idx → EReal) (w : (⟨2, ![128, 128]⟩ : Shape).Idx → EReal) :
    (⟨2, ![50000, 128]⟩ : Shape).Idx → EReal :=
  fun i => entry 50000 a b w (i 0) (i 1)

theorem layer_apply (a b : (⟨2, ![50000, 128]⟩ : Shape).Idx → EReal) (w : (⟨2, ![128, 128]⟩ : Shape).Idx → EReal)
    (p : Fin 50000) (q : Fin 128) : layer a b w (ix2 p q) = entry 50000 a b w p q := rfl

/-- An entry of the result reads one row of each feature array and one column of the weight: two pairs of feature
    arrays whose rows `p` and `p'` agree, with weights whose columns `q` agree, give the same entry there. -/
theorem entry_congr {n n' : Nat} (a b : (⟨2, ![n, 128]⟩ : Shape).Idx → EReal) (a' b' : (⟨2, ![n', 128]⟩ : Shape).Idx → EReal)
    (w w' : (⟨2, ![128, 128]⟩ : Shape).Idx → EReal) (p : Fin n) (p' : Fin n') (q : Fin 128)
    (ha : ∀ k : Fin 128, a (ix2 p k) = a' (ix2 p' k)) (hb : ∀ k : Fin 128, b (ix2 p k) = b' (ix2 p' k))
    (hw : ∀ k : Fin 128, w (ix2 k q) = w' (ix2 k q)) :
    entry n a b w p q = entry n' a' b' w' p' q := by
  unfold entry blend
  simp only [ha, hb, hw]

end Cert.LayerSpec

end
-- ==== Proof.RefLayer.lean ====
/-
  The reference's result, read entry by entry, is the layer of its own aggregated features.

  The reference computes the aggregated features `hi` on the host (a gather of rows, a scaling and a scatter-add:
  they are carried here as one array and never opened), blends them with the initial features, multiplies the
  blend with the weight in one `dot_general`, and mixes.  Read at row `p`, column `q`, the `dot_general` is the sum
  over `k` of the blend at (p, k) times the weight at (k, q), every splat constant is its word's value, and the
  result is `LayerSpec.entry` of the whole arrays at (p, q).
-/
import proofs.«122594_j1984274891520_2_alg».proof.Proof.Gen.ReferenceIdeal.Read
import proofs.«122594_j1984274891520_2_alg».proof.Proof.LayerSpec

noncomputable section

open scoped BigOperators

namespace Cert.ReferenceIdeal.RefLayer

open Cert.ReferenceIdeal Cert.ReferenceIdeal.Read Idealize.ShloMosaic Idealize.ShloMosaic.ValueIdx

/-- The left operand's index of the reference's product at output (p, q) and contraction coordinate `k` is (p, k). -/
theorem lidx_eq (p : Fin 50000) (q k : Fin 128) : lidx_main_v18 (ix2 p q) k = ix2 p k :=
  funext fun a => Fin.ext (by match a with | ⟨0, _⟩ => rfl | ⟨1, _⟩ => rfl)

/-- The right operand's index there is (k, q). -/
theorem ridx_eq (p : Fin 50000) (q k : Fin 128) : ridx_main_v18 (ix2 p q) k = ix2 k q :=
  funext fun a => Fin.ext (by match a with | ⟨0, _⟩ => rfl | ⟨1, _⟩ => rfl)

section
variable (x0 x1 : (⟨S50000x128, .f32⟩ : BufTy).Contents (Elt Ideal)) (x2 : (⟨S600000, .f32⟩ : BufTy).Contents (Elt Ideal))
  (x3 : (⟨S128x128, .f32⟩ : BufTy).Contents (Elt Ideal)) (x4 x5 : (⟨S600000, .i32⟩ : BufTy).Contents (Elt Ideal))

/-- The reference's blend, entry by entry: the two splat coefficients times the aggregated and the initial features. -/
theorem blend_eq (p : Fin 50000) (k : Fin 128) :
    val_main_v17 (F := Ideal) x0 x1 x2 x4 x5 (ix2 p k)
      = Cert.LayerSpec.blend 50000 (val_main_v12 (F := Ideal) x0 x2 x4 x5) x1 p k := by
  rw [val_main_v17_apply, val_main_v14_apply, val_main_v16_apply, val_main_v13_apply, val_main_v15_apply,
    val_main_cst_1_apply, val_main_cst_2_apply, Ideal.addf_def, Ideal.mulf_def, Ideal.mulf_def, Ideal.ofBits_def, Ideal.ofBits_def]
  rfl

/-- The reference's result is the layer of the aggregated features it computed, the initial features and the weight. -/
theorem result_eq :
    val_main_v23 (F := Ideal) x0 x1 x2 x3 x4 x5
      = Cert.LayerSpec.layer (val_main_v12 (F := Ideal) x0 x2 x4 x5) x1 x3 := by
  funext i
  obtain ⟨p, q, rfl⟩ : ∃ (p : Fin 50000) (q : Fin 128), i = ix2 p q := ⟨i 0, i 1, eq_ix2 i⟩
  rw [Cert.LayerSpec.layer_apply, val_main_v23_apply, val_main_v20_apply, val_main_v22_apply, val_main_v19_apply,
    val_main_v21_apply, val_main_v18_apply, val_main_cst_3_apply, val_main_cst_4_apply, blend_eq,
    Ideal.addf_def, Ideal.mulf_def, Ideal.mulf_def, Ideal.ofBits_def, Ideal.ofBits_def]
  simp only [lidx_eq, ridx_eq, blend_eq]
  rfl

end

end Cert.ReferenceIdeal.RefLayer

end
-- ==== Proof.BlockEntry.lean ====
/-
  What the kernel body stores, read entry by entry.

  The body loads a block of 5000 rows of the aggregated features, the matching block of the initial features and
  the whole weight, blends the two blocks, multiplies the blend with the weight into a zero accumulator, and
  mixes.  Over the extended reals the product into a zero accumulator at (p, q) is the plain sum over `k` of
  the blend at (p, k) times the weight at (k, q), so the stored value at (p, q) is `LayerSpec.entry` of the
  two blocks there.
-/
import proofs.«122594_j1984274891520_2_alg».proof.Proof.Gen.KernelIdeal.Skeleton
import proofs.«122594_j1984274891520_2_alg».proof.Proof.LayerSpec
import Idealize.ShloMosaic.Lib.ValueIdx
import Idealize.ShloMosaic.Lib.Pipeline.Value
import Idealize.ShloMosaic.PureOps.Ideal.Laws

noncomputable section

open scoped BigOperators

namespace Cert.KernelIdeal.BlockEntry

open Cert.KernelIdeal Cert.KernelIdeal.Gen Idealize.ShloMosaic Idealize.ShloMosaic.ValueIdx

/-- Axis 0 of the product's left operand is the output's row axis. -/
theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- Axis 1 of the left operand is the contracted axis. -/
theorem lhs_contr (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- Axis 0 of the right operand is the contracted axis. -/
theorem rhs_contr (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

/-- Axis 1 of the right operand is the output's column axis. -/
theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- So at output (p, q) and contraction coordinate `k` the left operand is read at (p, k) … -/
theorem lhs_eq (p : Fin 5000) (q k : Fin 128) :
    dot_S5000x128_S128x128_S5000x128_1_0_0_1_n_n.lhsIdx (ix2 p q)
        ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  exact funext fun a => Fin.ext (by
    match a with
    | ⟨0, _⟩ => exact lhs_row _ _
    | ⟨1, _⟩ => exact (lhs_contr _ _).trans hk)

/-- … and the right operand at (k, q). -/
theorem rhs_eq (p : Fin 5000) (q k : Fin 128) :
    dot_S5000x128_S128x128_S5000x128_1_0_0_1_n_n.rhsIdx (ix2 p q)
        ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  exact funext fun a => Fin.ext (by
    match a with
    | ⟨0, _⟩ => exact (rhs_contr _ _).trans hk
    | ⟨1, _⟩ => exact rhs_col _ _)

/-- The body's stored value at row `p`, column `q` of the block. -/
theorem pay_apply (x0 x1 : Vec Ideal S5000x128 .f32) (w : Vec Ideal S128x128 .f32) (p : Fin 5000) (q : Fin 128) :
    k0_pay1 (F := Ideal) x0 x1 w (ix2 p q) = Cert.LayerSpec.entry 5000 x0 x1 w p q := by
  unfold k0_pay1
  rw [shapeCast_self]
  simp only [matmul, addf_apply, mulf_apply, broadcast_apply, Ideal.ofBits_def]
  rw [Ideal.matmul_constant_zero_apply,
    ← Equiv.sum_comp (contrEquiv1 dot_S5000x128_S128x128_S5000x128_1_0_0_1_n_n 128 rfl rfl).symm]
  simp only [lhs_eq, rhs_eq, addf_apply, mulf_apply, broadcast_apply]
  rfl

end Cert.KernelIdeal.BlockEntry

end
-- ==== Proof.LayerBlocks.lean ====
/-
  From the blocks the grid's points write back to the whole result array.

  The grid has ten points.  Point `t` stages rows 5000·t … 5000·t + 4999 of the aggregated features and of the initial
  features, the whole weight, and writes back rows 5000·t … 5000·t + 4999 of the result.  An entry of the layer
  reads one row of each feature array, so what point `t` writes back is block `t` of the layer of the WHOLE
  arrays; the ten blocks cover all 50000 rows (row `r` lies in block `r / 5000`), hence the result array ends
  holding the layer of the arrays the region found.

  The block arithmetic is stated for ARBITRARY arrays `A`, `B`, `W` under the three input windows — it uses nothing
  about how they were computed — and only at the end read at the arrays the region finds.
-/
import proofs.«122594_j1984274891520_2_alg».proof.Proof.Gen.KernelIdeal.Value
import proofs.«122594_j1984274891520_2_alg».proof.Proof.BlockEntry
import proofs.«122594_j1984274891520_2_alg».proof.Proof.LayerSpec
import Idealize.ShloMosaic.Lib.ValueIdx
import Idealize.ShloMosaic.Lib.Pipeline.Value

noncomputable section

open scoped BigOperators

namespace Cert.KernelIdeal.LayerBlocks

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets : (![0, 0] : Fin 2 → Nat) = fun _ => 0 := funext fun a => by fin_cases a <;> rfl

/-- The block indices, decided over the ten points: the two feature windows and the result window move down
    the rows with the point, the weight window stays. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section AnyArrays

variable (A B : S50000x128.Idx → EReal) (W : S128x128.Idx → EReal)

/-- Row `p` of point `t`'s block under the first window is row `5000·t + p` of the array. -/
theorem rows_first (t : Fin cfg0.N) (p : Fin 5000) (k : Fin 128) (r : Fin 50000) (hr : r.val = t.val * 5000 + p.val) :
    (((cfg0.win 0).blk t).view.read (Elt Ideal) A : Vec Ideal S5000x128 .f32) (ix2 p k) = A (ix2 r k) := by
  obtain ⟨e0, e1, -⟩ := block_indices t
  show A (((cfg0.win 0).blk t).view.emb (ix2 p k)) = A (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row `p` of point `t`'s block under the second window is row `5000·t + p` of the array. -/
theorem rows_second (t : Fin cfg0.N) (p : Fin 5000) (k : Fin 128) (r : Fin 50000) (hr : r.val = t.val * 5000 + p.val) :
    (((cfg0.win 1).blk t).view.read (Elt Ideal) B : Vec Ideal S5000x128 .f32) (ix2 p k) = B (ix2 r k) := by
  obtain ⟨-, -, e0, e1, -⟩ := block_indices t
  show B (((cfg0.win 1).blk t).view.emb (ix2 p k)) = B (ix2 r k)
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- Every point's block under the third window is the whole 128 × 128 array. -/
theorem whole_third (t : Fin cfg0.N) (k q : Fin 128) :
    (((cfg0.win 2).blk t).view.read (Elt Ideal) W : Vec Ideal S128x128 .f32) (ix2 k q) = W (ix2 k q) := by
  obtain ⟨-, -, -, -, e0, e1, -⟩ := block_indices t
  show W (((cfg0.win 2).blk t).view.emb (ix2 k q)) = W (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The body's stored value of point `t`'s three input blocks, cut to what the point writes back, is block `t` of the
    layer of the whole arrays. -/
theorem block_of_layer (t : Fin cfg0.N) :
    (cfg0.win 3).cut (grid0.coords t)
        (k0_pay1 (F := Ideal) (((cfg0.win 0).blk t).view.read (Elt Ideal) A) (((cfg0.win 1).blk t).view.read (Elt Ideal) B)
          (((cfg0.win 2).blk t).view.read (Elt Ideal) W))
      = ((cfg0.win 3).blk t).view.read (Elt Ideal) (Cert.LayerSpec.layer A B W) := by
  funext j
  obtain ⟨p, q, rfl⟩ : ∃ (p : Fin 5000) (q : Fin 128), j = ix2 p q := ⟨j 0, j 1, eq_ix2 j⟩
  have hN : cfg0.N = 10 := N_0
  have ht : t.val < 10 := by have := t.isLt; omega
  have hp : p.val < 5000 := p.isLt
  obtain ⟨-, -, -, -, -, -, e0, e1⟩ := block_indices t
  have he : ((cfg0.win 3).blk t).view.emb (ix2 p q) = ix2 (⟨t.val * 5000 + p.val, by omega⟩ : Fin 50000) q :=
    funext fun a => Fin.ext (by
      match a with
      | ⟨0, _⟩ => show win0_3.index t (0 : Fin 2) * 5000 + 1 * p.val = t.val * 5000 + p.val; omega
      | ⟨1, _⟩ => show win0_3.index t (1 : Fin 2) * 128 + 1 * q.val = q.val; omega)
  show k0_pay1 (F := Ideal) (((cfg0.win 0).blk t).view.read (Elt Ideal) A) (((cfg0.win 1).blk t).view.read (Elt Ideal) B)
        (((cfg0.win 2).blk t).view.read (Elt Ideal) W) (ix2 p q)
      = Cert.LayerSpec.layer A B W (((cfg0.win 3).blk t).view.emb (ix2 p q))
  rw [he, Cert.LayerSpec.layer_apply]
  refine (Cert.KernelIdeal.BlockEntry.pay_apply _ _ _ p q).trans ?_
  exact Cert.LayerSpec.entry_congr _ _ _ _ _ _ p _ q (fun k => rows_first A t p k _ rfl) (fun k => rows_second B t p k _ rfl)
    (fun k => whole_third W t k q)

end AnyArrays

variable (m : (ℓ : Loc nD τ sig) → Buf (Elt Ideal) ℓ) (ρ : Dev nD → PrngReg)

/-- WHAT POINT `t` WRITES BACK is block `t` of the layer of the arrays as the region finds them. -/
theorem flushed_eq (c : Dev nD) (t : Fin cfg0.N) :
    (dats m 0 c).flushed 3 t = ((cfg0.win 3).blk t).view.read (Elt Ideal)
      (Cert.LayerSpec.layer (V m c main_v12) (V m c main_arg1) (V m c main_arg3)) := by
  rw [Cert.KernelIdeal.Value.flushed3]
  unfold out0_3
  rw [View.canon_unit_zero zero_offsets]
  simp only [View.ld_unit_zero (S := S5000x128) zero_offsets, View.ld_unit_zero (S := S128x128) zero_offsets]
  unfold iblk
  exact block_of_layer (V m c main_v12) (V m c main_arg1) (V m c main_arg3) t

/-- An index of the result array is in point `t`'s block iff each coordinate is in the block's range on its axis. -/
theorem mem_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v13).slice (win0_3.rect t)).set ↔ _
  rw [View.set_slice_whole, Rect.mem_set_unit]
  exact Iff.rfl

/-- Every index of the result array is in the block of the point its row falls under: row `r` is in block `r / 5000`. -/
theorem covered (i : S50000x128.Idx) :
    ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  have hlt : (i 0).val / 5000 < cfg0.N := by rw [hN]; omega
  obtain ⟨-, -, -, -, -, -, e0, e1⟩ := block_indices ⟨(i 0).val / 5000, hlt⟩
  have e0' : win0_3.index ⟨(i 0).val / 5000, hlt⟩ (0 : Fin 2) = (i 0).val / 5000 := e0
  refine ⟨⟨(i 0).val / 5000, hlt⟩, flush0_3 _, ?_⟩
  rw [mem_block]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e0']; omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e1]; omega

/-- THE RESULT ARRAY after the run is the layer of the arrays the region found. -/
theorem final (c : Dev nD) :
    (dats m 0 c).arrAt 3 cfg0.N = Cert.LayerSpec.layer (V m c main_v12) (V m c main_arg1) (V m c main_arg3) :=
  (dats m 0 c).arrAt_eq_of_cover 3 (Cert.LayerSpec.layer (V m c main_v12) (V m c main_arg1) (V m c main_arg3))
    (fun t _ => flushed_eq m c t) covered

/-- The kernel's run, read: the result array at the layer of the aggregated features the host prefix left, the
    initial features and the weight as launched; the arguments unchanged. -/
theorem run : θ_run defs (onTc (τ := τ) (main (F := Ideal))) ⟨m, fun _ => 0, ρ⟩ fun r => ∀ c : Dev nD,
      r.2.mem ((c : Thread nD τ).loc main_v13)
        = Cert.LayerSpec.layer (V m c main_v12) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (by rw [V_main_arg1, V_main_arg3])), (h c).2⟩)
    (Cert.KernelIdeal.Value.run_blocks m ρ)

end Cert.KernelIdeal.LayerBlocks

end
-- ==== Proof.SharedAggregation.lean ====
/-
  Both programs compute the aggregated features in the same way.

  Before its one kernel launch the kernel's program runs the same sixteen host operations the reference starts with:
  negative column indices are wrapped, the rows of `x` they name are gathered, each is scaled by its edge's
  value, and the scaled rows are scatter-added into a zero array at the edges' row indices.  The array the kernel's
  region finds under its first window is therefore the reference's `%12` of the same arguments.  The two are
  the same term; neither the gather nor the scatter-add is opened.
-/
import proofs.«122594_j1984274891520_2_alg».proof.Proof.Gen.KernelIdeal.Frame
import proofs.«122594_j1984274891520_2_alg».proof.Proof.Gen.ReferenceIdeal.Read
import Idealize.ShloMosaic.Lib.StableHlo.Run

noncomputable section

namespace Cert.KernelIdeal.SharedAggregation

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The array under the kernel's first window, as the region finds it, is the reference's aggregation of the
    launch contents of `x`, the edge values and the two index arrays. -/
theorem agg_eq (c : Dev nD) :
    (V m c main_v12 : S50000x128.Idx → Elt F .f32)
      = Cert.ReferenceIdeal.Read.val_main_v12 (F := F) (m ((c : Thread nD τ).loc main_arg0)) (m ((c : Thread nD τ).loc main_arg2))
          (m ((c : Thread nD τ).loc main_arg4)) (m ((c : Thread nD τ).loc main_arg5)) := by
  dsimp only [V, hostOps0]
  after_results
  rfl

end Cert.KernelIdeal.SharedAggregation

end
-- ==== Proof.lean ====
/-
  The kernel computes the reference's residual graph-convolution layer.

  Both programs first aggregate neighbour features on the host — gather the rows of `x` named by the column
  indices, scale each by its edge value, scatter-add into the rows named by the row indices — by the same sixteen
  operations (`Proof/SharedAggregation.lean`: the same term of the arguments, never opened).  Writing `hi` for that
  array, `h0` for the initial features and `W` for the weight, each program then forms the blend
  s = cAgg · hi + cInit · h0 and returns cProd · (s · W) + cKeep · s, with the same four f32 coefficients
  (`Proof/LayerSpec.lean`).

  The reference does this on the whole 50000 × 128 arrays with one `dot_general` (`Proof/RefLayer.lean`).  The
  kernel does it on ten blocks of 5000 rows, with a matrix product into a zero accumulator (`Proof/BlockEntry.lean`);
  an entry of the layer reads one row of `hi` and `h0` only, so each block written back is the block of the layer of
  the whole arrays, and the ten blocks cover the result (`Proof/LayerBlocks.lean`).  Over the extended reals the
  product into a zero accumulator and the host's product are the same sum over the contracted index, so the two
  results are one function of the arguments, entry by entry, with no appeal to finiteness: only sums and
  products are compared, in the same order and grouping on both sides.

  No operation of the kernel had to be rewritten to be read over the extended reals, so that reading is the kernel's
  own text and the conjunct about the rewrites asks nothing.
-/
import proofs.«122594_j1984274891520_2_alg».proof.Defs
import proofs.«122594_j1984274891520_2_alg».proof.Proof.Gen.Kernel
import proofs.«122594_j1984274891520_2_alg».proof.Proof.Gen.Kernel.Skeleton
import proofs.«122594_j1984274891520_2_alg».proof.Proof.Gen.Kernel.Launch
import proofs.«122594_j1984274891520_2_alg».proof.Proof.Gen.Kernel.Points
import proofs.«122594_j1984274891520_2_alg».proof.Proof.Gen.Kernel.Frame
import proofs.«122594_j1984274891520_2_alg».proof.Proof.Gen.KernelIdeal
import proofs.«122594_j1984274891520_2_alg».proof.Proof.Gen.KernelIdeal.Skeleton
import proofs.«122594_j1984274891520_2_alg».proof.Proof.Gen.KernelIdeal.Launch
import proofs.«122594_j1984274891520_2_alg».proof.Proof.Gen.KernelIdeal.Points
import proofs.«122594_j1984274891520_2_alg».proof.Proof.Gen.KernelIdeal.Frame
import proofs.«122594_j1984274891520_2_alg».proof.Proof.Gen.ReferenceIdeal
import proofs.«122594_j1984274891520_2_alg».proof.Proof.Gen.Pre_finite_inputs
import proofs.«122594_j1984274891520_2_alg».proof.Proof.Gen.KernelIdeal.Value
import proofs.«122594_j1984274891520_2_alg».proof.Proof.Gen.ReferenceIdeal.Run
import proofs.«122594_j1984274891520_2_alg».proof.Proof.Gen.ReferenceIdeal.Read
import proofs.«122594_j1984274891520_2_alg».proof.Proof.LayerSpec
import proofs.«122594_j1984274891520_2_alg».proof.Proof.RefLayer
import proofs.«122594_j1984274891520_2_alg».proof.Proof.LayerBlocks
import proofs.«122594_j1984274891520_2_alg».proof.Proof.SharedAggregation
import Idealize.ShloMosaic.Adequacy
import Idealize.ShloMosaic.Init

noncomputable section

namespace Cert.Proof

open Idealize.ShloMosaic Idealize.ShloMosaic.TcCoe Idealize.SL.Sem

/-- The kernel's program as printed runs and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the arguments both programs end with the layer of the aggregated features, the
    initial features and the weight in their result arrays. -/
theorem algebraic : Cert.algebraic_KernelIdeal_ReferenceIdeal := by
  intro m ρ m' ρ' _ hagree
  refine ⟨fun c => Cert.LayerSpec.layer
      (Cert.ReferenceIdeal.Read.val_main_v12 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.LayerBlocks.run m ρ)
    rw [Cert.KernelIdeal.SharedAggregation.agg_eq]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v23_eq, Cert.ReferenceIdeal.RefLayer.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
